-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S2048x512 : Shape := ⟨2, ![2048, 512]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S128x2048 .f32) (main_arg1 : FVec F S2048x512 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S128x2048 : Shape := ⟨2, ![128, 2048]⟩
abbrev S2048x512 : Shape := ⟨2, ![2048, 512]⟩
abbrev S128x512 : Shape := ⟨2, ![128, 512]⟩
abbrev S2048x128 : Shape := ⟨2, ![2048, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x2048, .f32⟩
  | .hbm, ⟨1, _⟩ => ⟨S2048x512, .f32⟩
  | .hbm, ⟨2, _⟩ => ⟨S128x512, .f32⟩
  | .local _ .vmem, ⟨0, _⟩ => ⟨S128x2048, .f32⟩
  | .local _ .vmem, ⟨1, _⟩ => ⟨S2048x128, .f32⟩
  | .local _ .vmem, ⟨2, _⟩ => ⟨S2048x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v7 : BitVec 32 := Scalar.muli arg5 c128_i32
  v7
def k0_off1 (k0_t1 : Fin k0_t1_loop.trips) : Fin 2 → Nat :=
  let c0_6 : Index := 0#32
  let c0_i32 : BitVec 32 := 0#32
  let c1_i32 : BitVec 32 := 1#32
  let arg5 : BitVec 32 := Scf.iv c0_i32 c1_i32 k0_t1
  let c128_i32 : BitVec 32 := 128#32
  let v7 : BitVec 32 := Scalar.muli arg5 c128_i32
  let v8 : BitVec 32 := v7
  let v9 : Index := Scalar.indexCast v8
  ![0, v9.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v7 : BitVec 32 := Scalar.muli arg5 c128_i32
  let v8 : BitVec 32 := v7
  let v11 : Index := Scalar.indexCast v8
  let c0_7 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x2048.size a
  k0_off2_inb : ∀ k0_t1 : Fin k0_t1_loop.trips, ∀ a, (k0_off2 k0_t1) a + S128x128.size a ≤ S2048x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .f32 = 32 ∨ (Rect.block (s := S128x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x512.size a
  hwx0_1 : ∀ i : grid0.Coords, EltTy.bits .f32 = 32 ∨ (Rect.block (s := S2048x512) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x512.size a
  hwx0_2 : ∀ i : grid0.Coords, EltTy.bits .f32 = 32 ∨ (Rect.block (s := S128x512) S128x128.size (cc0_transform_2 i) (hinb0_2 i)).WholeWords (EltTy.packing .f32)

variable [Facts₀]

abbrev win0_0 : Pipeline.Window sig grid0 :=
  Pipeline.Window.ofSpec (Memref.whole main_arg0) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x2048 : Shape := ⟨2, ![128, 2048]⟩
abbrev S2048x512 : Shape := ⟨2, ![2048, 512]⟩
abbrev S_ : Shape := ⟨0, ![]⟩
abbrev S128x2048x1 : Shape := ⟨3, ![128, 2048, 1]⟩
abbrev S1x2048x512 : Shape := ⟨3, ![1, 2048, 512]⟩
abbrev S128x2048x512 : Shape := ⟨3, ![128, 2048, 512]⟩
abbrev S128x512 : Shape := ⟨2, ![128, 512]⟩

abbrev nBuf : Space → Nat
  | .hbm => 17
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S128x2048x1, .f32⟩
  | .hbm, ⟨11, _⟩ => ⟨S1x2048x512, .f32⟩
  | .hbm, ⟨12, _⟩ => ⟨S128x2048x512, .f32⟩
  | .hbm, ⟨13, _⟩ => ⟨S128x2048x512, .f32⟩
  | .hbm, ⟨14, _⟩ => ⟨S128x2048x512, .f32⟩
  | .hbm, ⟨15, _⟩ => ⟨S_, .f32⟩
  | .hbm, ⟨16, _⟩ => ⟨S128x512, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S2048x512 : S_.BroadcastsInDim S2048x512 (![] : Fin 0 → Fin S2048x512.rank)
  bcast_S128x2048_S128x2048x1_0_1 : S128x2048.BroadcastsInDim S128x2048x1 (![0, 1] : Fin 2 → Fin S128x2048x1.rank)
  bcast_S2048x512_S1x2048x512_1_2 : S2048x512.BroadcastsInDim S1x2048x512 (![1, 2] : Fin 2 → Fin S1x2048x512.rank)
  bcast_S128x2048x1_S128x2048x512_0_1_2 : S128x2048x1.BroadcastsInDim S128x2048x512 (![0, 1, 2] : Fin 3 → Fin S128x2048x512.rank)
  bcast_S1x2048x512_S128x2048x512_0_1_2 : S1x2048x512.BroadcastsInDim S128x2048x512 (![0, 1, 2] : Fin 3 → Fin S128x2048x512.rank)
  reducesTo_S128x2048x512_S128x512_d1 : S128x2048x512.ReducesTo [1] S128x512
  h_S_ : 0 < S_.numel

variable [Facts₀]

class Facts : Prop extends Facts₀ where

variable [Facts]
-- ==== Proof.LoopPieces.lean ====
/-
  What the kernel body's stores are, read once off the body's run.

  The body fills the accumulator with `-∞`, runs sixteen trips, each of which stores ONE whole-block piece into the
  accumulator — the trip's arithmetic (the generated payload `k0_pay2`) of the chunk of `m` at columns `128 k …`, the
  chunk of the weight tile at rows `128 k …` and the accumulator as the trip finds it (`trip_piece`) —, and at the
  end copies the accumulator into the output block (`out_eq`: the output block is the accumulator read back after
  the sixteen trips' pieces, written over the `-∞` fill).  Both facts hold at any float instance.
-/
import proofs.«172919_j14705968021855_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offsets of a whole-block access, however they are spelt. -/
theorem hz : (![0, 0] : Fin 2 → Nat) = fun _ => 0 := funext fun a => by fin_cases a <;> rfl

/-- The rectangle of a whole [128, 128] block. -/
abbrev whole : Rect S128x128 := Rect.unit (s := S128x128) ![0, 0] S128x128.size inb_S128x128_S128x128_0_0

/-- ONE TRIP'S STORE: a whole-block piece whose payload is the trip's arithmetic of the two chunks the trip loads
    (the rectangles at the trip's offsets) and of the accumulator's contents as the trip finds them. -/
theorem trip_piece (𝒱 : Variants) (c : Dev nD) (bd : Option 𝒱.V) (i : grid0.Coords) (arg1 : Memref sig .tc .vmem S128x2048 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S128x128 .f32) (harg4 : arg4.IsWhole)
    (X_arg1 : BufTy.Contents (Elt F) arg1.view.ty) (X_arg2 : BufTy.Contents (Elt F) arg2.view.ty) (k : Fin k0_t1_loop.trips) (f_arg4 : BufTy.Contents (Elt F) arg4.view.ty) :
    tripL_k0_t1 (F := F) 𝒱 c bd i arg1 harg1 arg2 harg2 arg3 harg3 arg4 harg4 X_arg1 X_arg2 k f_arg4
      = [⟨whole, k0_pay2
            (View.readAt (Elt F) arg1.view (Rect.unit (s := S128x2048) (k0_off1 k) S128x128.size (k0_off1_inb k)).toLoadRect X_arg1)
            (View.readAt (Elt F) arg2.view (Rect.unit (s := S2048x128) (k0_off2 k) S128x128.size (k0_off2_inb k)).toLoadRect X_arg2)
            (View.readAt (Elt F) arg4.view whole.toLoadRect f_arg4)⟩] := by
  unfold tripL_k0_t1 trip_k0_t1
  dsimp only
  try sl_unfold_words

/-- THE OUTPUT BLOCK after the body: the accumulator read back, after the pieces of all the trips written over the
    `-∞` fill (each trip's piece taken at the contents the trips before it left). -/
theorem out_eq (c : Dev nD) (i : grid0.Coords) (arg1 : Memref sig .tc .vmem S128x2048 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S128x128 .f32) (harg4 : arg4.IsWhole)
    (x0 : Vec F S128x2048 .f32) (x1 : Vec F S2048x128 .f32) :
    out0_A_2 c i arg1 harg1 arg2 harg2 arg3 harg3 arg4 harg4 x0 x1
      = View.readAt (Elt F) arg4.view whole.toLoadRect
          (arg4.view.writes (Elt F) arg4.view.junk
            (pb_k0_t1 Variants.none c none i arg1 harg1 arg2 harg2 arg3 harg3 arg4 harg4 (harg1.unread x0) (harg2.unread x1)
                (arg4.view.writes (Elt F) arg4.view.junk [⟨whole, k0_pay1⟩])
                (Scf.trips k0_t1_loop.lb k0_t1_loop.ub k0_t1_loop.st)
              ++ [⟨whole, k0_pay1⟩])) := by
  unfold out0_A_2
  rw [View.read_writes_eq_canon _ _ _ (cover0_A_2 c i arg1 harg1 arg2 harg2 arg3 harg3 arg4 harg4 x0 x1)]
  unfold kernelRun0_A
  dsimp only
  try sl_unfold_words
  exact View.canon_unit_zero hz _ _

end Cert.KernelIdeal.Pieces

end
-- ==== Proof.MaxMinSpec.lean ====
/-
  The function both programs compute, over the extended reals:

      out[b, o] = max over i < 2048 of  min (m[b, i]) (clip (weight[i, o])),     clip w = min 1 (max 0 w),

  the maximum taken from `-∞` (the float word `0xFF800000`).  The three float words (`-∞`, `0.0`, `1.0`) are kept as
  words: the same word stands on both sides and is never evaluated.  `min` and `max` are the lattice operations of
  the linear order of the extended reals, so nothing below needs the inputs to be finite.
-/
import Idealize.ShloMosaic.PureOps.Ideal
import Idealize.ShloMosaic.Lib.ValueIdx

noncomputable section

namespace Cert.MaxMin

open Idealize.ShloMosaic Idealize.ShloMosaic.ValueIdx

/-- The start value of every maximum: the float word of `-∞`. -/
abbrev negInf : EReal := Ideal.ofBits .f32 0xFF800000#32

/-- A weight constrained to `[0, 1]`: `min 1 (max 0 w)`, the words of `1.0` and `0.0` unevaluated. -/
def clip (w : EReal) : EReal := min (Ideal.ofBits .f32 0x3F800000#32) (max (Ideal.ofBits .f32 0x00000000#32) w)

/-- One term of the composition: `min (m[b, i]) (clip (weight[i, o]))`. -/
def term (A : (⟨2, ![128, 2048]⟩ : Shape).Idx → EReal) (W : (⟨2, ![2048, 512]⟩ : Shape).Idx → EReal)
    (b : Fin 128) (o : Fin 512) (i : Fin 2048) : EReal :=
  min (A (ix2 b i)) (clip (W (ix2 i o)))

/-- THE RESULT: at `(b, o)` the maximum from `-∞` over the 2048 inner positions of `term`. -/
def maxMin (A : (⟨2, ![128, 2048]⟩ : Shape).Idx → EReal) (W : (⟨2, ![2048, 512]⟩ : Shape).Idx → EReal) :
    (⟨2, ![128, 512]⟩ : Shape).Idx → EReal :=
  fun i => (Finset.univ : Finset (Fin 2048)).fold max negInf (term A W (i 0) (i 1))

end Cert.MaxMin

end
-- ==== Proof.ChunkBody.lean ====
/-
  The arithmetic of one trip of the idealized kernel's inner loop, read at an index.

  A trip loads a [128, 128] chunk `x` of `m` (all rows, 128 inner positions), a [128, 128] chunk `w` of the weight tile
  (the same 128 inner positions, the tile's 128 columns) and the accumulator `a`, and stores

      a'[b, o] = max (a[b, o]) (max over j < 128 of min (x[b, j]) (clip (w[j, o]))),

  the inner maximum taken from `-∞`: the chunk `x` is given a trailing unit axis and spread along the columns, the
  clipped chunk a leading unit axis and spread along the rows, their pointwise minimum is reduced over the middle
  axis.  Before the first trip the accumulator is filled with `-∞`.
-/
import proofs.«172919_j14705968021855_2_alg».proof.Proof.Gen.KernelIdeal.Skeleton
import proofs.«172919_j14705968021855_2_alg».proof.Proof.MaxMinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Idealize.ShloMosaic Idealize.ShloMosaic.ValueIdx Cert.KernelIdeal Cert.KernelIdeal.Gen Cert.MaxMin

/-- The maximum one trip takes in: over the chunk's 128 inner positions, from `-∞`. -/
def chunkMax (x w : FVec Ideal S128x128 .f32) (b o : Fin 128) : EReal :=
  (Finset.univ : Finset (Fin 128)).fold max negInf fun j => min (x (ix2 b j)) (clip (w (ix2 j o)))

/-- A [128, 128, 1] vector spread along a third axis of 128 reads, at `(b, j, o)`, its entry `(b, j, 0)`. -/
theorem spread_cols_apply (x : FVec Ideal S128x128x1 .f32) (h : S128x128x1.Broadcasts S128x128x128) (b j o : Fin 128) :
    broadcastTo S128x128x128 x h (ix3 b j o) = x (ix3 b j (0 : Fin 1)) :=
  broadcastTo_apply x h _ _ fun a => match a with
    | ⟨0, _⟩ => by show b.val = if (128 : Nat) = 1 then 0 else b.val; rw [if_neg (by decide)]
    | ⟨1, _⟩ => by show j.val = if (128 : Nat) = 1 then 0 else j.val; rw [if_neg (by decide)]
    | ⟨2, _⟩ => by show 0 = if (1 : Nat) = 1 then 0 else o.val; rw [if_pos rfl]

/-- A [1, 128, 128] vector spread along a first axis of 128 reads, at `(b, j, o)`, its entry `(0, j, o)`. -/
theorem spread_rows_apply (x : FVec Ideal S1x128x128 .f32) (h : S1x128x128.Broadcasts S128x128x128) (b j o : Fin 128) :
    broadcastTo S128x128x128 x h (ix3 b j o) = x (ix3 (0 : Fin 1) j o) :=
  broadcastTo_apply x h _ _ fun a => match a with
    | ⟨0, _⟩ => by show 0 = if (1 : Nat) = 1 then 0 else b.val; rw [if_pos rfl]
    | ⟨1, _⟩ => by show j.val = if (128 : Nat) = 1 then 0 else j.val; rw [if_neg (by decide)]
    | ⟨2, _⟩ => by show o.val = if (128 : Nat) = 1 then 0 else o.val; rw [if_neg (by decide)]

/-- A [128, 128] vector given a trailing unit axis reads, at `(b, j, 0)`, its entry `(b, j)`: the two indices have the
    same row-major position. -/
theorem unit_col_apply (x : FVec Ideal S128x128 .f32) (h : S128x128.ShapeCasts S128x128x1) (b j : Fin 128) (u : Fin 1) :
    shapeCast S128x128x1 x h (ix3 b j u) = x (ix2 b j) :=
  shapeCast_apply x h _ _ (by
    have hu : u.val = 0 := by omega
    rw [Shape.rowMajor_val_three, Shape.rowMajor_val_two]
    show b.val * 128 + j.val = (b.val * 128 + j.val) * 1 + u.val
    rw [hu, Nat.mul_one, Nat.add_zero])

/-- The accumulator before the first trip: `-∞` everywhere. -/
theorem pay1_apply (y : S128x128.Idx) : k0_pay1 (F := Ideal) y = negInf := by
  unfold k0_pay1
  exact congrFun (shapeCast_self _ _) y

/-- A maximum over the middle axis of a [128, 128, 128] vector, from `-∞`, reads at `(b, o)` as the maximum over `j` of the
    entries `(b, j, o)`. -/
theorem midMax_apply (src : FVec Ideal S128x128x128 .f32) (h : S128x128x128.Reduces [1] S128x128)
    (hφ : FKind.Formats .f32) (hacc : (0xFF800000#32 : BitVec (FTy.f32).bits) = FKind.maximumf.neutral .f32 hφ) (b o : Fin 128) :
    multiReduction .maximumf [1] S128x128 src 0xFF800000#32 h hφ hacc (ix2 b o)
      = (Finset.univ : Finset (Fin 128)).fold max negInf fun j => src (ix3 b j o) := by
  refine (Ideal.multiReduction_maximumf_single src _ h hφ hacc (ix2 b o)).trans ?_
  show (Finset.univ : Finset (Fin 128)).fold max negInf _ = _
  refine Finset.fold_congr fun j _ => ?_
  exact congrArg src (funext fun c => Fin.ext (match c with | ⟨0, _⟩ => rfl | ⟨1, _⟩ => rfl | ⟨2, _⟩ => rfl))

/-- ONE TRIP at `(b, o)`: the accumulator's entry, or the chunk's maximum if that is larger. -/
theorem pay2_apply (x w a : FVec Ideal S128x128 .f32) (b o : Fin 128) :
    k0_pay2 (F := Ideal) x w a (ix2 b o) = max (a (ix2 b o)) (chunkMax x w b o) := by
  unfold k0_pay2
  refine (congrFun (shapeCast_self _ _) _).trans ?_
  refine congrArg (max (a (ix2 b o))) ?_
  refine (midMax_apply _ _ _ _ b o).trans ?_
  unfold chunkMax
  refine Finset.fold_congr fun j _ => ?_
  show min (broadcastTo S128x128x128 _ _ (ix3 b j o)) (broadcastTo S128x128x128 _ _ (ix3 b j o)) = _
  rw [spread_cols_apply, spread_rows_apply, unit_col_apply, shapeCast_ab_1ab_apply]
  rfl

end Cert.KernelIdeal.Chunk

end
-- ==== Proof.LibBlockMax.lean ====
/-
  A maximum over an axis of extent `T * B`, taken block by block.

  Over a linear order, the fold of `max` from a start value `b` over a finite family is the least common upper
  bound of `b` and the family's members: an element whose upper bounds are exactly those common upper bounds is that
  fold (`eq_fold_max_of_forall_le_iff`).  A running maximum that starts at `b` and at step `n` takes in the maximum
  (again from `b`) of the `B` members at positions `n * B … n * B + B - 1` has, after `n` steps, exactly the
  common upper bounds of `b` and the members at positions below `n * B`; after `T` steps it is the fold over the
  whole axis (`fold_max_blocks`).  Nothing here needs a bottom element, finiteness of the values or a particular
  index type beyond `Fin`.
-/
import Mathlib.Data.Finset.Fold
import Mathlib.Data.Fintype.Basic
import Mathlib.Order.Basic

namespace Cert.BlockMax

variable {α : Type*} [LinearOrder α]

/-- Position `j` of block `n` — blocks of `B` positions, `T` of them — is a position of the whole axis. -/
theorem blockIdx_lt {T B n j : ℕ} (hn : n < T) (hj : j < B) : n * B + j < T * B :=
  calc n * B + j < n * B + B := Nat.add_lt_add_left hj _
    _ = (n + 1) * B := (Nat.succ_mul n B).symm
    _ ≤ T * B := Nat.mul_le_mul_right B hn

/-- An element whose upper bounds are exactly the common upper bounds of `b` and of every member of the family is the
    fold of `max` from `b` over the family. -/
theorem eq_fold_max_of_forall_le_iff {ι : Type*} (s : Finset ι) (b : α) (f : ι → α) (x : α)
    (h : ∀ c, x ≤ c ↔ b ≤ c ∧ ∀ i ∈ s, f i ≤ c) : x = s.fold max b f :=
  eq_of_forall_ge_iff fun c => by rw [h, Finset.fold_max_le]

/-- THE BLOCKED MAXIMUM.  `acc 0 = b`, and step `n < T` replaces `acc n` by its maximum with the maximum (from `b`)
    of block `n` of the family `f`: then `acc T` is the maximum (from `b`) of the whole family. -/
theorem fold_max_blocks (b : α) (T B : ℕ) (f : Fin (T * B) → α) (acc : ℕ → α) (h0 : acc 0 = b)
    (hs : ∀ n (hn : n < T), acc (n + 1)
      = max (acc n) ((Finset.univ : Finset (Fin B)).fold max b fun j => f ⟨n * B + j.val, blockIdx_lt hn j.isLt⟩)) :
    acc T = (Finset.univ : Finset (Fin (T * B))).fold max b f := by
  -- after `n` steps the upper bounds of `acc n` are those of `b` and of the members below position `n * B`
  have key : ∀ n, n ≤ T → ∀ c, acc n ≤ c ↔ b ≤ c ∧ ∀ k : Fin (T * B), k.val < n * B → f k ≤ c := by
    intro n
    induction n with
    | zero =>
      intro _ c
      rw [h0]
      exact ⟨fun h => ⟨h, fun k hk => absurd hk (by rw [Nat.zero_mul]; exact Nat.not_lt_zero _)⟩, fun h => h.1⟩
    | succ n ih =>
      intro hn c
      have hn' : n < T := hn
      rw [hs n hn', max_le_iff, ih (Nat.le_of_lt hn'), Finset.fold_max_le]
      constructor
      · rintro ⟨⟨hb, h1⟩, -, h2⟩
        refine ⟨hb, fun k hk => ?_⟩
        by_cases hlt : k.val < n * B
        · exact h1 k hlt
        · -- a position of block `n`: its place inside the block is `k - n * B`
          rw [Nat.succ_mul] at hk
          have hj : k.val - n * B < B := by omega
          have h3 := h2 ⟨k.val - n * B, hj⟩ (Finset.mem_univ _)
          have e : k = ⟨n * B + (k.val - n * B), blockIdx_lt hn' hj⟩ :=
            Fin.ext (by show k.val = n * B + (k.val - n * B); omega)
          have e' : f k = f ⟨n * B + (k.val - n * B), blockIdx_lt hn' hj⟩ := congrArg f e
          rw [e']; exact h3
      · rintro ⟨hb, h⟩
        refine ⟨⟨hb, fun k hk => h k (by rw [Nat.succ_mul]; omega)⟩, hb, fun j _ => h _ ?_⟩
        show n * B + j.val < (n + 1) * B
        rw [Nat.succ_mul]; have := j.isLt; omega
  refine eq_fold_max_of_forall_le_iff _ _ _ _ fun c => ?_
  rw [key T le_rfl c]
  exact ⟨fun ⟨hb, h⟩ => ⟨hb, fun k _ => h k k.isLt⟩, fun ⟨hb, h⟩ => ⟨hb, fun k _ => h k (Finset.mem_univ _)⟩⟩

end Cert.BlockMax
-- ==== Proof.Accumulator.lean ====
/-
  The accumulator trip by trip, and what it holds after the last trip.

  `accAt X W n` is the accumulator after `n` trips over the block `X` of `m` (all 2048 inner positions) and the tile
  `W` of the weight (2048 inner positions, 128 columns): `-∞` everywhere before the first trip, and trip `n`'s
  arithmetic of chunk `n` of `X`, chunk `n` of `W` and `accAt X W n` after it.  The pieces the body's run found
  (one whole-block store per trip, each taken at the contents the trips before left) read back as exactly this
  (`read_pieces`), at any float instance.  Over the extended reals trip `n` at `(b, o)` takes in the maximum of
  `min (X[b, i]) (clip (W[i, o]))` over the inner positions `i = 128 n … 128 n + 127`, so after the sixteen trips the
  entry is the maximum over all 2048 inner positions (`accAt_last`): the blocked maximum of `Cert.BlockMax`.
-/
import proofs.«172919_j14705968021855_2_alg».proof.Proof.LoopPieces
import proofs.«172919_j14705968021855_2_alg».proof.Proof.ChunkBody
import proofs.«172919_j14705968021855_2_alg».proof.Proof.LibBlockMax

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Pieces Cert.KernelIdeal.Chunk Cert.MaxMin

theorem trips_eq : k0_t1_loop.trips = 16 := by decide

section AnyInstance

variable {F : FTy → Type} [FloatOps F]

/-- A buffer whose LAST store was a whole-block store reads back that store's payload, whatever was stored before. -/
theorem read_writes_whole {sig : RefSig} {κ : Kind} {sp : Space} (v : View sig κ sp S128x128 .f32) (f : v.ty.Contents (Elt F))
    (w : whole.shape.Idx → Elt F .f32) (L : List (View.Piece (Elt F) S128x128 .f32)) :
    v.read (Elt F) (v.writes (Elt F) f (⟨whole, w⟩ :: L)) = w := by
  rw [View.read_writes_eq_canon _ _ _ (fun y => ⟨_, List.mem_cons_self, View.mem_set_unit_zero hz inb_S128x128_S128x128_0_0 y⟩)]
  exact View.canon_cons_unit_zero hz _ w L

/-- The accumulator after `n` trips (unchanged past the last trip). -/
def accAt (X : S128x2048.Idx → Elt F .f32) (W : S2048x128.Idx → Elt F .f32) : ℕ → Vec F S128x128 .f32
  | 0 => k0_pay1
  | n + 1 =>
    if h : n < k0_t1_loop.trips then
      k0_pay2 (View.ld X (Rect.unit (s := S128x2048) (k0_off1 ⟨n, h⟩) S128x128.size (k0_off1_inb ⟨n, h⟩)))
        (View.ld W (Rect.unit (s := S2048x128) (k0_off2 ⟨n, h⟩) S128x128.size (k0_off2_inb ⟨n, h⟩)))
        (accAt X W n)
    else accAt X W n

theorem accAt_succ (X : S128x2048.Idx → Elt F .f32) (W : S2048x128.Idx → Elt F .f32) (n : ℕ) (h : n < k0_t1_loop.trips) :
    accAt X W (n + 1)
      = k0_pay2 (View.ld X (Rect.unit (s := S128x2048) (k0_off1 ⟨n, h⟩) S128x128.size (k0_off1_inb ⟨n, h⟩)))
          (View.ld W (Rect.unit (s := S2048x128) (k0_off2 ⟨n, h⟩) S128x128.size (k0_off2_inb ⟨n, h⟩)))
          (accAt X W n) := by
  rw [accAt.eq_2, dif_pos h]

/-- THE PIECES READ BACK.  The accumulator, filled with `-∞` and then written by the pieces of the trips before `n`
    (each at the contents the earlier trips left), reads `accAt X W n`, `X` and `W` being what the two input buffers read. -/
theorem read_pieces (c : Dev nD) (i : grid0.Coords) (arg1 : Memref sig .tc .vmem S128x2048 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S128x128 .f32) (harg4 : arg4.IsWhole)
    (X : Vec F S128x2048 .f32) (W : Vec F S2048x128 .f32) :
    ∀ n, n ≤ k0_t1_loop.trips →
      arg4.view.read (Elt F)
          (arg4.view.writes (Elt F) (arg4.view.writes (Elt F) arg4.view.junk [⟨whole, k0_pay1⟩])
            (pb_k0_t1 Variants.none c none i arg1 harg1 arg2 harg2 arg3 harg3 arg4 harg4 (harg1.unread X) (harg2.unread W)
              (arg4.view.writes (Elt F) arg4.view.junk [⟨whole, k0_pay1⟩]) n))
        = accAt X W n := by
  intro n
  induction n with
  | zero =>
    intro _
    rw [pb_k0_t1.eq_1, View.writes_nil]
    exact read_writes_whole _ _ _ []
  | succ n ih =>
    intro hn
    have h : n < k0_t1_loop.trips := hn
    have e : pb_k0_t1 Variants.none c none i arg1 harg1 arg2 harg2 arg3 harg3 arg4 harg4 (harg1.unread X) (harg2.unread W)
          (arg4.view.writes (Elt F) arg4.view.junk [⟨whole, k0_pay1⟩]) (n + 1) = _ :=
      pb_k0_t1_succ (F := F) Variants.none c none i arg1 harg1 arg2 harg2 arg3 harg3 arg4 harg4 (harg1.unread X) (harg2.unread W)
        (arg4.view.writes (Elt F) arg4.view.junk [⟨whole, k0_pay1⟩]) ⟨n, h⟩
    rw [e, trip_piece, List.cons_append, List.nil_append, read_writes_whole, accAt_succ X W n h]
    simp only [View.readAt_eq_ld, harg1.read_unread, harg2.read_unread, View.ld_unit_zero (S := S128x128) hz]
    rw [ih (Nat.le_of_lt h)]

/-- THE OUTPUT BLOCK the body leaves is the accumulator after the last trip, as a function of what the two input
    buffers hold. -/
theorem out_block (c : Dev nD) (i : grid0.Coords) (arg1 : Memref sig .tc .vmem S128x2048 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S128x128 .f32) (harg4 : arg4.IsWhole)
    (X : Vec F S128x2048 .f32) (W : Vec F S2048x128 .f32) :
    out0_A_2 c i arg1 harg1 arg2 harg2 arg3 harg3 arg4 harg4 X W = accAt X W k0_t1_loop.trips := by
  rw [out_eq, View.writes_append, View.readAt_eq_ld, View.ld_unit_zero (S := S128x128) hz]
  exact read_pieces c i arg1 harg1 arg2 harg2 arg3 harg3 arg4 harg4 X W _ (Nat.le_refl _)

end AnyInstance

/-! ## Over the extended reals -/

/-- Chunk `k` of a block of `m`: its entry `(b, j)` is the block's entry `(b, 128 k + j)`. -/
theorem chunkX_apply (X : Vec Ideal S128x2048 .f32) (k : Fin k0_t1_loop.trips) (b j : Fin 128) (q : Fin 2048)
    (hq : q.val = 128 * k.val + j.val) :
    View.ld (Val := Elt Ideal) X (Rect.unit (s := S128x2048) (k0_off1 k) S128x128.size (k0_off1_inb k)) (ix2 b j) = X (ix2 b q) := by
  refine congrArg X (funext fun a => Fin.ext ?_)
  match a with
  | ⟨0, _⟩ => show k0_off1 k 0 + 1 * b.val = b.val; rw [k0_off1_eq k]; show 0 + 1 * b.val = b.val; omega
  | ⟨1, _⟩ => show k0_off1 k 1 + 1 * j.val = q.val; rw [k0_off1_eq k, hq]; show 128 * k.val + 1 * j.val = _; omega

/-- Chunk `k` of a tile of the weight: its entry `(j, o)` is the tile's entry `(128 k + j, o)`. -/
theorem chunkW_apply (W : Vec Ideal S2048x128 .f32) (k : Fin k0_t1_loop.trips) (j o : Fin 128) (q : Fin 2048)
    (hq : q.val = 128 * k.val + j.val) :
    View.ld (Val := Elt Ideal) W (Rect.unit (s := S2048x128) (k0_off2 k) S128x128.size (k0_off2_inb k)) (ix2 j o) = W (ix2 q o) := by
  refine congrArg W (funext fun a => Fin.ext ?_)
  match a with
  | ⟨0, _⟩ => show k0_off2 k 0 + 1 * j.val = q.val; rw [k0_off2_eq k, hq]; show 128 * k.val + 1 * j.val = _; omega
  | ⟨1, _⟩ => show k0_off2 k 1 + 1 * o.val = o.val; rw [k0_off2_eq k]; show 0 + 1 * o.val = o.val; omega

/-- AFTER THE LAST TRIP the accumulator's entry `(b, o)` is the maximum, from `-∞`, over all 2048 inner positions `i`
    of `min (X[b, i]) (clip (W[i, o]))`: sixteen blocks of 128, each taken in by one trip. -/
theorem accAt_last (X : Vec Ideal S128x2048 .f32) (W : Vec Ideal S2048x128 .f32) (b o : Fin 128) :
    accAt (F := Ideal) X W k0_t1_loop.trips (ix2 b o)
      = (Finset.univ : Finset (Fin 2048)).fold max negInf fun i => min (X (ix2 b i)) (clip (W (ix2 i o))) := by
  rw [trips_eq]
  refine Cert.BlockMax.fold_max_blocks negInf 16 128 (fun i : Fin (16 * 128) => min (X (ix2 b i)) (clip (W (ix2 i o))))
    (fun n => accAt (F := Ideal) X W n (ix2 b o)) (pay1_apply _) fun n hn => ?_
  have h : n < k0_t1_loop.trips := by rw [trips_eq]; exact hn
  show accAt (F := Ideal) X W (n + 1) (ix2 b o) = _
  rw [accAt_succ (F := Ideal) X W n h]
  refine (pay2_apply _ _ _ b o).trans (congrArg (max _) ?_)
  unfold chunkMax
  refine Finset.fold_congr fun j _ => ?_
  rw [chunkX_apply X ⟨n, h⟩ b j ⟨n * 128 + j.val, Cert.BlockMax.blockIdx_lt hn j.isLt⟩ (by show n * 128 + j.val = 128 * n + j.val; omega),
    chunkW_apply W ⟨n, h⟩ j o ⟨n * 128 + j.val, Cert.BlockMax.blockIdx_lt hn j.isLt⟩ (by show n * 128 + j.val = 128 * n + j.val; omega)]

/-- THE BLOCK AGAINST THE SPECIFICATION.  If the block `X` of `m` is the whole array `A`, and the tile `W` is the columns
    `128 p … 128 p + 127` of the weight `Wt`, then the accumulator after the last trip, at `y`, is the specification of
    `A` and `Wt` at the index `z` that has `y`'s row and column `128 p + ` `y`'s column. -/
theorem block_eq (X : Vec Ideal S128x2048 .f32) (W : Vec Ideal S2048x128 .f32) (A : Vec Ideal S128x2048 .f32) (Wt : Vec Ideal S2048x512 .f32)
    (y : S128x128.Idx) (z : S128x512.Idx) (p : ℕ)
    (hX : ∀ x : S128x2048.Idx, X x = A x)
    (hW : ∀ (x : S2048x128.Idx) (x' : S2048x512.Idx), (x' 0).val = (x 0).val → (x' 1).val = p * 128 + (x 1).val → W x = Wt x')
    (hz0 : (z 0).val = (y 0).val) (hz1 : (z 1).val = p * 128 + (y 1).val) :
    accAt (F := Ideal) X W k0_t1_loop.trips y = maxMin A Wt z := by
  obtain ⟨b, o, rfl⟩ : ∃ (b : Fin 128) (o : Fin 128), y = ix2 b o := ⟨y 0, y 1, eq_ix2 y⟩
  obtain ⟨b', o', rfl⟩ : ∃ (b' : Fin 128) (o' : Fin 512), z = ix2 b' o' := ⟨z 0, z 1, eq_ix2 z⟩
  obtain rfl : b' = b := Fin.ext hz0
  rw [accAt_last]
  unfold maxMin
  show _ = (Finset.univ : Finset (Fin 2048)).fold max negInf (term A Wt b' o')
  refine Finset.fold_congr fun i _ => ?_
  unfold term
  rw [hX, hW (ix2 i o) (ix2 i o') rfl hz1]

end Cert.KernelIdeal.Acc

end
-- ==== Proof.KernelValue.lean ====
/-
  The idealized kernel's result array, as one function of its two arguments.

  The grid has four points; point `t` stages ALL of `m` (the same block at every point), the weight's columns
  `128 t … 128 t + 127` (all 2048 rows) and writes back the result's columns `128 t … 128 t + 127` (all 128 rows).
  What point `t` writes back is the accumulator after the body's last trip (`Acc.out_block`), which is the
  specification `Cert.MaxMin.maxMin` of the two argument arrays read at the block's indices (`Acc.block_eq`); the
  four blocks cover the result array — the point that covers column `o` is `o / 128` —, so the array ends holding
  the specification everywhere (`final`), and the kernel's run can be stated with that function (`run`).
-/
import proofs.«172919_j14705968021855_2_alg».proof.Proof.Gen.KernelIdeal.Value
import proofs.«172919_j14705968021855_2_alg».proof.Proof.Accumulator

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Acc Cert.MaxMin

variable (m : (ℓ : Loc nD τ sig) → Buf (Elt Ideal) ℓ) (ρ : Dev nD → PrngReg)

/-- Where each window's block sits at grid point `t`, decided over the four points: `m`'s block is always block
    (0, 0); the weight's and the result's blocks are block (0, t). -/
theorem block_index : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT `t` WRITES BACK is block `t` of the specification of the argument arrays. -/
theorem flushed_eq (c : Dev nD) (t : Fin cfg0.N) :
    (dats m 0 c).flushed 2 t
      = ((cfg0.win 2).blk t).view.read (Elt Ideal) (maxMin (V m c main_arg0) (V m c main_arg1)) := by
  rw [flushed2_A, out_block]
  obtain ⟨e00, e01, e10, e11, e20, e21⟩ := block_index t
  funext j
  refine block_eq _ _ (V m c main_arg0) (V m c main_arg1) j _ t.val (fun x => ?_) (fun x x' h0 h1 => ?_) ?_ ?_
  · -- the block of `m` is the whole array
    show V m c main_arg0 (((cfg0.win 0).blk t).view.emb x) = V m c main_arg0 x
    refine congrArg (V m c main_arg0) (funext fun a => Fin.ext ?_)
    match a with
    | ⟨0, _⟩ => show win0_0.index t (0 : Fin 2) * 128 + 1 * (x 0).val = (x 0).val; omega
    | ⟨1, _⟩ => show win0_0.index t (1 : Fin 2) * 2048 + 1 * (x 1).val = (x 1).val; omega
  · -- the tile of the weight is its columns 128 t …
    show V m c main_arg1 (((cfg0.win 1).blk t).view.emb x) = V m c main_arg1 x'
    refine congrArg (V m c main_arg1) (funext fun a => Fin.ext ?_)
    match a with
    | ⟨0, _⟩ => show win0_1.index t (0 : Fin 2) * 2048 + 1 * (x 0).val = (x' 0).val; omega
    | ⟨1, _⟩ => show win0_1.index t (1 : Fin 2) * 128 + 1 * (x 1).val = (x' 1).val; omega
  · show win0_2.index t (0 : Fin 2) * 128 + 1 * (j 0).val = (j 0).val; omega
  · show win0_2.index t (1 : Fin 2) * 128 + 1 * (j 1).val = t.val * 128 + (j 1).val; omega

/-- An index of the result array is in point `t`'s block iff each coordinate is in the block's range on its axis. -/
theorem mem_blk (t : Fin cfg0.N) (i : S128x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- THE FOUR BLOCKS COVER THE RESULT: column `o` is in the block of point `o / 128`. -/
theorem cover (i : S128x512.Idx) : ∃ t : Fin cfg0.N, (cfg0.win 2).flush t = true ∧ i ∈ ((cfg0.win 2).blk t).view.set := by
  have hN : cfg0.N = 4 := N_0
  have hi0 : (i 0).val < 128 := (i 0).isLt
  have hi1 : (i 1).val < 512 := (i 1).isLt
  refine ⟨⟨(i 1).val / 128, by rw [hN]; omega⟩, flush0_2 _, ?_⟩
  rw [mem_blk]
  obtain ⟨-, -, -, -, e20, e21⟩ := block_index ⟨(i 1).val / 128, by rw [hN]; omega⟩
  intro a
  match a with
  | ⟨0, _⟩ =>
    show win0_2.index _ (0 : Fin 2) * 128 ≤ (i 0).val ∧ (i 0).val < win0_2.index _ (0 : Fin 2) * 128 + 128
    rw [e20]; omega
  | ⟨1, _⟩ =>
    show win0_2.index _ (1 : Fin 2) * 128 ≤ (i 1).val ∧ (i 1).val < win0_2.index _ (1 : Fin 2) * 128 + 128
    rw [e21]; show (i 1).val / 128 * 128 ≤ (i 1).val ∧ (i 1).val < (i 1).val / 128 * 128 + 128; omega

/-- THE RESULT ARRAY after the run: the specification of the two argument arrays. -/
theorem final (c : Dev nD) :
    (dats m 0 c).arrAt 2 cfg0.N = maxMin (m ((c : Thread nD τ).loc main_arg0)) (m ((c : Thread nD τ).loc main_arg1)) :=
  (dats m 0 c).arrAt_eq_of_cover 2 (maxMin (V m c main_arg0) (V m c main_arg1)) (fun t _ => flushed_eq m c t) cover

/-- The kernel's run with the result named: every weakly fair execution terminates with the result array at the
    specification of the arguments, the arguments unchanged. -/
theorem run : θ_run defs (onTc (τ := τ) (main (F := Ideal))) ⟨m, fun _ => 0, ρ⟩ fun r => ∀ c : Dev nD,
      r.2.mem ((c : Thread nD τ).loc main_v0) = maxMin (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefMaxMin.lean ====
/-
  The reference's result is the specification `Cert.MaxMin.maxMin`.

  The reference clips the weight (`min 1 (max 0 w)`), gives `m` a trailing unit axis and the clipped weight a leading
  one, spreads both to [128, 2048, 512], takes the pointwise minimum and reduces with `max` from `-∞` over the middle
  axis.  Read at `(b, o)`: the reduction over one axis is the fold of `max` over that axis's 2048 coordinates `i`, and
  the entry `(b, i, o)` of the minimum is `min (m[b, i]) (clip (weight[i, o]))` — each spread reads its operand at the
  coordinates it keeps.
-/
import proofs.«172919_j14705968021855_2_alg».proof.Proof.Gen.ReferenceIdeal.Read
import proofs.«172919_j14705968021855_2_alg».proof.Proof.MaxMinSpec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.MaxMin

/-- Dropping the middle axis of [128, 2048, 512] leaves [128, 512]. -/
theorem reduces_mid : S128x2048x512.Reduces [1] S128x512 := by decide

/-- THE REFERENCE IS THE SPECIFICATION: its last stage, as a function of the two arguments, is `maxMin`. -/
theorem ref_eq (x0 : FVec Ideal S128x2048 .f32) (x1 : FVec Ideal S2048x512 .f32) :
    val_main_v6 (F := Ideal) x0 x1 = maxMin x0 x1 := by
  funext i
  obtain ⟨b, o, rfl⟩ : ∃ (b : Fin 128) (o : Fin 512), i = ix2 b o := ⟨i 0, i 1, eq_ix2 i⟩
  unfold val_main_v6
  refine (Host.reduce_eq_fold_single FloatOps.maximumf _ _ reducesTo_S128x2048x512_S128x512_d1 reduces_mid h_S_ (ix2 b o)).trans ?_
  unfold maxMin
  show (Finset.univ : Finset (Fin 2048)).fold max negInf _ = (Finset.univ : Finset (Fin 2048)).fold max negInf (term x0 x1 b o)
  refine Finset.fold_congr fun k _ => ?_
  -- the entry (b, k, o) of the pointwise minimum reads m at (b, k) and the clipped weight at (k, o)
  have e1 : idx_main_v1 (idx_main_v3 (reduces_mid.lift (ix2 b o) k)) = ix2 b k :=
    funext fun a => Fin.ext (by match a with | ⟨0, _⟩ => rfl | ⟨1, _⟩ => rfl)
  have e2 : idx_main_v2 (idx_main_v4 (reduces_mid.lift (ix2 b o) k)) = ix2 k o :=
    funext fun a => Fin.ext (by match a with | ⟨0, _⟩ => rfl | ⟨1, _⟩ => rfl)
  show val_main_v5 (F := Ideal) x0 x1 (reduces_mid.lift (ix2 b o) k) = _
  rw [val_main_v5_apply, val_main_v3_apply, val_main_v1_apply, val_main_v4_apply, val_main_v2_apply, val_main_v0_apply,
    val_main_call0_v4_apply, val_main_call0_v2_apply, val_main_call0_v1_apply, e1, e2]
  rfl

end Cert.ReferenceIdeal.RefValue

end
-- ==== Proof.lean ====
/-
  A max–min composition: out[b, o] = max over i < 2048 of min (m[b, i]) (clip (weight[i, o])), clip w = min 1 (max 0 w),
  over m : f32[128, 2048] and weight : f32[2048, 512].

  The kernel runs a grid of four points, one per tile of 128 result columns; each point fills a [128, 128] accumulator
  with -∞ and runs sixteen trips over chunks of 128 inner positions, a trip replacing the accumulator by its pointwise
  maximum with the chunk's own max–min; the accumulator is then copied to the result tile.  The reference clips the
  weight, spreads both operands to [128, 2048, 512], takes the pointwise minimum and reduces with max from -∞ over the
  middle axis.

  Over the extended reals both are the function `Cert.MaxMin.maxMin` of the two arguments:
    · a maximum over 2048 positions is the running maximum over sixteen blocks of 128 (`Cert.BlockMax.fold_max_blocks`:
      the fold of max from a start value is the least common upper bound of the start value and the members, so it does
      not depend on how the members are grouped) — `Cert.KernelIdeal.Acc.accAt_last`;
    · the kernel's four column tiles cover the result array, each holding the specification at its indices
      (`Cert.KernelIdeal.Whole.final`);
    · the reference's reduction over the middle axis is the fold over that axis's coordinates, and each spread operand is
      read at the coordinates it keeps (`Cert.ReferenceIdeal.RefValue.ref_eq`).
  Only the lattice operations min and max occur, so the inputs' finiteness is never used.  The idealization rewrote no
  operation of the kernel, so the statement that it is the kernel's idealization has no conjunct to prove.
-/
import proofs.«172919_j14705968021855_2_alg».proof.Defs
import proofs.«172919_j14705968021855_2_alg».proof.Proof.Gen.Kernel
import proofs.«172919_j14705968021855_2_alg».proof.Proof.Gen.Kernel.Skeleton
import proofs.«172919_j14705968021855_2_alg».proof.Proof.Gen.Kernel.Loops
import proofs.«172919_j14705968021855_2_alg».proof.Proof.Gen.Kernel.Launch
import proofs.«172919_j14705968021855_2_alg».proof.Proof.Gen.Kernel.Points
import proofs.«172919_j14705968021855_2_alg».proof.Proof.Gen.Kernel.Frame
import proofs.«172919_j14705968021855_2_alg».proof.Proof.Gen.KernelIdeal
import proofs.«172919_j14705968021855_2_alg».proof.Proof.Gen.KernelIdeal.Skeleton
import proofs.«172919_j14705968021855_2_alg».proof.Proof.Gen.KernelIdeal.Loops
import proofs.«172919_j14705968021855_2_alg».proof.Proof.Gen.KernelIdeal.Launch
import proofs.«172919_j14705968021855_2_alg».proof.Proof.Gen.KernelIdeal.Points
import proofs.«172919_j14705968021855_2_alg».proof.Proof.Gen.KernelIdeal.Frame
import proofs.«172919_j14705968021855_2_alg».proof.Proof.Gen.ReferenceIdeal
import proofs.«172919_j14705968021855_2_alg».proof.Proof.Gen.Pre_finite_inputs
import proofs.«172919_j14705968021855_2_alg».proof.Proof.Gen.KernelIdeal.Value
import proofs.«172919_j14705968021855_2_alg».proof.Proof.Gen.ReferenceIdeal.Run
import proofs.«172919_j14705968021855_2_alg».proof.Proof.Gen.ReferenceIdeal.Read
import proofs.«172919_j14705968021855_2_alg».proof.Proof.KernelValue
import proofs.«172919_j14705968021855_2_alg».proof.Proof.RefMaxMin
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `m` and `weight`, both programs end with the result array at
    `maxMin m weight`: the kernel tile by tile and chunk by chunk, the reference in one reduction. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
